-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4096 : Shape := ⟨3, ![32, 512, 4096]⟩
abbrev S16x3x2 : Shape := ⟨3, ![16, 3, 2]⟩
abbrev S_ : Shape := ⟨0, ![]⟩

class Facts : Prop where
  bcast_S_S32x512x4096 : S_.BroadcastsInDim S32x512x4096 (![] : Fin 0 → Fin S32x512x4096.rank)
  reducesTo_S32x512x4096_S_d0_1_2 : S32x512x4096.ReducesTo [0, 1, 2] S_
  h_S_ : 0 < S_.numel
  bcast_S_S16x3x2 : S_.BroadcastsInDim S16x3x2 (![] : Fin 0 → Fin S16x3x2.rank)
  reducesTo_S16x3x2_S_d0_1_2 : S16x3x2.ReducesTo [0, 1, 2] S_

variable [Facts]

def fn {F : FTy → Type} [FloatOps F] (main_arg0 : FVec F S32x512x4096 .f32) (main_arg1 : FVec F S16x3x2 .f32) : IVec S_ 1 :=
  let main_v0 : FVec F S32x512x4096 .f32 := Host.absf main_arg0
  let main_cst : FVec F S_ .f32 := constant S_ .f32 0x7F800000#32
  let main_v1 : FVec F S32x512x4096 .f32 := broadcastInDim S32x512x4096 ![] bcast_S_S32x512x4096 main_cst
  let main_v2 : IVec S32x512x4096 1 := cmpf .olt main_v0 main_v1
  let main_c : IVec S_ 1 := constantI S_ 1 1#1
  let main_v3 : IVec S_ 1 := (fun x v => Host.reduce IntOp.andi x v reducesTo_S32x512x4096_S_d0_1_2 h_S_) main_v2 main_c
  let main_v4 : FVec F S16x3x2 .f32 := Host.absf main_arg1
  let main_cst_0 : FVec F S_ .f32 := constant S_ .f32 0x7F800000#32
  let main_v5 : FVec F S16x3x2 .f32 := broadcastInDim S16x3x2 ![] bcast_S_S16x3x2 main_cst_0
  let main_v6 : IVec S16x3x2 1 := cmpf .olt main_v4 main_v5
  let main_c_1 : IVec S_ 1 := constantI S_ 1 1#1
  let main_v7 : IVec S_ 1 := (fun x v => Host.reduce IntOp.andi x v reducesTo_S16x3x2_S_d0_1_2 h_S_) main_v6 main_c_1
  let main_v8 : IVec S_ 1 := andi main_v3 main_v7
  main_v8
-- ==== Kernel.lean ====
abbrev S32x512x4096 : Shape := ⟨3, ![32, 512, 4096]⟩
abbrev S16x3x2 : Shape := ⟨3, ![16, 3, 2]⟩
abbrev S32x512x4111 : Shape := ⟨3, ![32, 512, 4111]⟩
abbrev S2x512x4111 : Shape := ⟨3, ![2, 512, 4111]⟩

abbrev nBuf : Space → Nat
  | .hbm => 3
  | .vmem => 2
  | .smem => 0
  | _ => 0

abbrev bufTy : (tb : Table) → Fin (tcTables nBuf tb) → BufTy
  | .hbm, ⟨0, _⟩ => ⟨S32x512x4096, .f32⟩
  | .hbm, ⟨1, _⟩ => ⟨S16x3x2, .f32⟩
  | .hbm, ⟨2, _⟩ => ⟨S32x512x4111, .f32⟩
  | .local _ .vmem, ⟨0, _⟩ => ⟨S2x512x4111, .f32⟩
  | .local _ .vmem, ⟨1, _⟩ => ⟨S2x512x4111, .f32⟩
  | _, _ => ⟨S32x512x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x4111 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  inb_S2x512x4111_S2x512x4111_0_0_0 : ∀ a, (![0, 0, 0] : Fin 3 → Nat) a + S2x512x4111.size a ≤ S2x512x4111.size a
  h_S2x512x4111 : 0 < S2x512x4111.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x4111.size a ≤ S32x512x4111.size a
  hwx0_0 : ∀ i : grid0.Coords, EltTy.bits .f32 = 32 ∨ (Rect.block (s := S32x512x4111) S2x512x4111.size (cc0_transform_0 i) (hinb0_0 i)).WholeWords (EltTy.packing .f32)

variable [Facts₀]

abbrev win0_0 : Pipeline.Window sig grid0 :=
  Pipeline.Window.ofSpec (Memref.whole main_v0) S2x512x4111.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S32x512x4096 : Shape := ⟨3, ![32, 512, 4096]⟩
abbrev S16x3x2 : Shape := ⟨3, ![16, 3, 2]⟩
abbrev S_ : Shape := ⟨0, ![]⟩
abbrev S32x512x4111 : Shape := ⟨3, ![32, 512, 4111]⟩

abbrev nBuf : Space → Nat
  | .hbm => 4
  | .vmem => 0
  | .smem => 0
  | _ => 0

abbrev bufTy : (tb : Table) → Fin (tcTables nBuf tb) → BufTy
  | .hbm, ⟨0, _⟩ => ⟨S32x512x4096, .f32⟩
  | .hbm, ⟨1, _⟩ => ⟨S16x3x2, .f32⟩
  | .hbm, ⟨2, _⟩ => ⟨S_, .f32⟩
  | .hbm, ⟨3, _⟩ => ⟨S32x512x4111, .f32⟩
  | _, _ => ⟨S32x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S32x512x4111 : S_.BroadcastsInDim S32x512x4111 (![] : Fin 0 → Fin S32x512x4111.rank)

variable [Facts₀]

class Facts : Prop extends Facts₀ where

variable [Facts]
-- ==== Proof.KernelFill.lean ====
/-
  The idealized kernel leaves its result array constant.

  The result is an f32[32, 512, 4111] array. The pallas_call has a grid of 16 points and ONE window, the output's: at
  point t the body stores one scalar, the float whose word is 0x41800000 (sixteen), broadcast over the whole
  [2, 512, 4111] staging block, and the block is written back at block index (t, 0, 0), that is over the entries
  (n, c, l) with n = 2t or 2t + 1. Entry (n, c, l) therefore lies in the block of point n / 2, the sixteen blocks cover the
  array, and after the run every entry holds that one float. The two arguments are staged by no window and end as launched.

  Nothing is computed from the float, so the statement holds for every reading of floats (any `F`), and the word is never
  evaluated.
-/
import proofs.«163440_j5403068858821_2_alg».proof.Proof.FrameKernelIdeal
import Idealize.ShloMosaic.Lib.Pipeline.Value

noncomputable section

open Idealize.ShloMosaic Idealize.ShloMosaic.TcCoe Idealize.SL.Sem
open Idealize.ShloMosaic.Pipeline (Dat)

namespace Cert.KernelIdeal.Fill

open Cert.KernelIdeal Cert.KernelIdeal.Gen Cert.KernelIdeal.GenP

variable {F : FTy → Type} [FloatOps F]
variable (m : (ℓ : Loc nD τ sig) → Buf (Elt F) ℓ) (ρ : Dev nD → PrngReg)

/-- The array of the result's shape that holds the float of the word 0x41800000 at every index. -/
abbrev sixteen : S32x512x4111.Idx → Elt F .f32 := fun _ => FloatOps.ofBits .f32 0x41800000#32

/-- The body's one store starts at the staging block's origin. -/
theorem origin : (![0, 0, 0] : Fin 3 → Nat) = fun _ => 0 := funext fun a => by fin_cases a <;> rfl

/-- What point `t` writes back is the constant array read through the point's block: the store covers the staging block
    with the broadcast scalar, and a constant array read through any rectangle is that constant. -/
theorem flushed_const (c : Dev nD) (t : Fin cfg0.N) :
    (dats m 0 c).flushed 0 t = ((cfg0.win 0).blk t).view.read (Elt F) (sixteen (F := F)) := by
  show (cfg0.win 0).cut (grid0.coords t) ((dats m 0 c).after 0 t) = _
  rw [after0_0]
  unfold out0_0
  rw [View.canon_unit_zero origin]
  rfl

/-- The block index of point `t` is (t, 0, 0), decided over the 16 points. -/
theorem block_index : ∀ t : Fin cfg0.N, win0_0.index t (0 : Fin 3) = t.val ∧ win0_0.index t (1 : Fin 3) = 0
    ∧ win0_0.index t (2 : Fin 3) = 0 :=
  (by decide +kernel : ∀ t : Fin grid0.N, _)

/-- An index of the array is in point `t`'s block iff on each axis its coordinate is within the block's extent from the
    block's first coordinate, block index × block size. -/
theorem mem_block (t : Fin cfg0.N) (i : S32x512x4111.Idx) :
    i ∈ ((cfg0.win 0).blk t).view.set ↔ ∀ a : Fin 3, win0_0.index t a * S2x512x4111.size a ≤ (i a).val
      ∧ (i a).val < win0_0.index t a * S2x512x4111.size a + S2x512x4111.size a := by
  show i ∈ ((View.whole main_v0).slice (win0_0.rect t)).set ↔ _
  rw [View.set_slice_whole, Rect.mem_set_unit]
  exact Iff.rfl

/-- Every index (n, c, l) of the array is in the block of the point n / 2, and every point writes its block back. -/
theorem covered (i : S32x512x4111.Idx) :
    ∃ t : Fin cfg0.N, (cfg0.win 0).flush t = true ∧ i ∈ ((cfg0.win 0).blk t).view.set := by
  have h0 : (i 0).val < 32 := (i 0).isLt
  have h1 : (i 1).val < 512 := (i 1).isLt
  have h2 : (i 2).val < 4111 := (i 2).isLt
  have hN : grid0.N = 16 := N_0
  obtain ⟨t, ht⟩ : ∃ t : Fin cfg0.N, t.val = (i 0).val / 2 :=
    ⟨⟨(i 0).val / 2, by show (i 0).val / 2 < grid0.N; omega⟩, rfl⟩
  obtain ⟨e0, e1, e2⟩ := block_index t
  refine ⟨t, flush0_0 t, ?_⟩
  rw [mem_block]
  intro a
  match a with
  | ⟨0, _⟩ =>
    show win0_0.index t (0 : Fin 3) * 2 ≤ (i 0).val ∧ (i 0).val < win0_0.index t (0 : Fin 3) * 2 + 2
    omega
  | ⟨1, _⟩ =>
    show win0_0.index t (1 : Fin 3) * 512 ≤ (i 1).val ∧ (i 1).val < win0_0.index t (1 : Fin 3) * 512 + 512
    omega
  | ⟨2, _⟩ =>
    show win0_0.index t (2 : Fin 3) * 4111 ≤ (i 2).val ∧ (i 2).val < win0_0.index t (2 : Fin 3) * 4111 + 4111
    omega

/-- So the result array ends constant: each block written back is the constant array's, and the blocks cover it. -/
theorem final_const (c : Dev nD) : (dats m 0 c).arrAt 0 cfg0.N = sixteen (F := F) :=
  (dats m 0 c).arrAt_eq_of_cover 0 (sixteen (F := F)) (fun t _ => flushed_const m c t) covered

/-- The run, read: every weakly fair execution terminates with the result array constant and the two arguments as
    launched. The frame run's post gives the output window's array after the last point, and leaves every buffer that no
    window stages as the region found it. -/
theorem run : θ_run defs (onTc (τ := τ) (main (F := F))) ⟨m, fun _ => 0, ρ⟩ fun r => ∀ c : Dev nD,
      r.2.mem ((c : Thread nD τ).loc main_v0) = sixteen (F := F)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 0).trans (final_const m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Fill

end
-- ==== Proof.ReferenceFill.lean ====
/-
  The idealized reference's result is the same constant array: its @main is one scalar constant, the float whose word is
  0x41800000 (sixteen), broadcast to f32[32, 512, 4111]. A broadcast of a rank-0 array reads its one entry at every index.
-/
import proofs.«163440_j5403068858821_2_alg».proof.Proof.Gen.ReferenceIdeal.Read

noncomputable section

open Idealize.ShloMosaic Idealize.ShloMosaic.TcCoe Idealize.SL.Sem

namespace Cert.ReferenceIdeal.Fill

open Cert.ReferenceIdeal Cert.ReferenceIdeal.Gen

variable {F : FTy → Type} [FloatOps F]

/-- The term the reference's run ends at is the constant array: at an index the broadcast reads the scalar, and the scalar is
    the float of the word. -/
theorem result_const :
    broadcastInDim S32x512x4111 ![] bcast_S_S32x512x4111 (constant S_ .f32 0x41800000#32)
      = (fun _ => FloatOps.ofBits .f32 0x41800000#32 : S32x512x4111.Idx → Elt F .f32) := by
  rw [Read.val_main_v0_eq]
  funext i
  rw [Read.val_main_v0_apply, Read.val_main_cst_apply]

end Cert.ReferenceIdeal.Fill

end
-- ==== Proof.lean ====
/-
  Kernel and reference both fill an f32[32, 512, 4111] array with one float, the one whose word is 0x41800000 (sixteen);
  neither reads its two arguments (f32[32, 512, 4096] and f32[16, 3, 2]), which only give the result its shape.

  The kernel writes the array as sixteen blocks of shape [2, 512, 4111], block t over the first-axis entries 2t and 2t + 1, each
  block the scalar broadcast; the blocks cover the array (Proof/KernelFill.lean). The reference broadcasts the same scalar to the
  whole shape (Proof/ReferenceFill.lean). It is the same word on both sides, so the two results are equal as extended reals
  entry by entry with no arithmetic at all: no law of the extended reals is used, and the precondition (every input finite) is
  never opened.

  The three frames: each kernel program's frame is its frame certificate's (Proof/FrameKernel.lean at the word level,
  Proof/FrameKernelIdeal.lean at the extended reals); the reference has no kernel, and its frame is its run with the result
  dropped. The idealization rewrote no operation, so there is nothing to preserve.
-/
import proofs.«163440_j5403068858821_2_alg».proof.Defs
import proofs.«163440_j5403068858821_2_alg».proof.Proof.Gen.Kernel
import proofs.«163440_j5403068858821_2_alg».proof.Proof.Gen.KernelIdeal
import proofs.«163440_j5403068858821_2_alg».proof.Proof.Gen.ReferenceIdeal
import proofs.«163440_j5403068858821_2_alg».proof.Proof.Gen.Pre_finite_inputs
import proofs.«163440_j5403068858821_2_alg».proof.Proof.Gen.ReferenceIdeal.Run
import proofs.«163440_j5403068858821_2_alg».proof.Proof.FrameKernel
import proofs.«163440_j5403068858821_2_alg».proof.Proof.FrameKernelIdeal
import proofs.«163440_j5403068858821_2_alg».proof.Proof.KernelFill
import proofs.«163440_j5403068858821_2_alg».proof.Proof.ReferenceFill
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The idealized reference is two host operations; its run, with what it says of the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both idealized programs end with the result array constant at the float of the word 0x41800000, on every device, whatever
    the arguments hold. -/
theorem algebraic : Cert.algebraic_KernelIdeal_ReferenceIdeal := by
  intro m ρ m' ρ' _ _
  refine ⟨fun _ => Cert.KernelIdeal.Fill.sixteen (F := Ideal), Cert.KernelIdeal.Fill.run (F := Ideal) m ρ, ?_⟩
  exact (θ_run Cert.ReferenceIdeal.defs _ _).mono
    (fun _ h c => ⟨(h c).1.trans Cert.ReferenceIdeal.Fill.result_const, (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
